-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S64x64 : Shape := ⟨2, ![64, 64]⟩
abbrev S64x16 : Shape := ⟨2, ![64, 16]⟩
abbrev S16x64 : Shape := ⟨2, ![16, 64]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg4 : FVec F S64x16 .f32) (main_arg5 : FVec F S16x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S64x64 .f32) (main_arg4 : FVec F S64x16 .f32) (main_arg5 : FVec F S16x64 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S64x64 : Shape := ⟨2, ![64, 64]⟩
abbrev S64x16 : Shape := ⟨2, ![64, 16]⟩
abbrev S16x64 : Shape := ⟨2, ![16, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S_ : Shape := ⟨0, ![]⟩
abbrev S8192x4096 : Shape := ⟨2, ![8192, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 26
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S64x64, .f32⟩
  | .hbm, ⟨4, _⟩ => ⟨S64x16, .f32⟩
  | .hbm, ⟨5, _⟩ => ⟨S16x64, .f32⟩
  | .hbm, ⟨6, _⟩ => ⟨S64x64, .f32⟩
  | .hbm, ⟨7, _⟩ => ⟨S64x1x64x1, .f32⟩
  | .hbm, ⟨8, _⟩ => ⟨S1x64x1x64, .f32⟩
  | .hbm, ⟨9, _⟩ => ⟨S64x64x64x64, .f32⟩
  | .hbm, ⟨10, _⟩ => ⟨S64x64x64x64, .f32⟩
  | .hbm, ⟨11, _⟩ => ⟨S64x64x64x64, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .bf16⟩
  | .hbm, ⟨21, _⟩ => ⟨S8192x4096, .f32⟩
  | .hbm, ⟨22, _⟩ => ⟨S8192x4096, .bf16⟩
  | .hbm, ⟨23, _⟩ => ⟨S1x4096, .f32⟩
  | .hbm, ⟨24, _⟩ => ⟨S8192x4096, .f32⟩
  | .hbm, ⟨25, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  bcast_S_S4096x4096 : S_.BroadcastsInDim S4096x4096 (![] : Fin 0 → Fin S4096x4096.rank)
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S64x16_S16x64_S64x64_1_0_0_1_n_n_wf : DotDims.WF S64x16 S16x64 S64x64 [1] [0] [0] [1] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v14) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S64x64 : Shape := ⟨2, ![64, 64]⟩
abbrev S64x16 : Shape := ⟨2, ![64, 16]⟩
abbrev S16x64 : Shape := ⟨2, ![16, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S_ : Shape := ⟨0, ![]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S64x64, .f32⟩
  | .hbm, ⟨4, _⟩ => ⟨S64x16, .f32⟩
  | .hbm, ⟨5, _⟩ => ⟨S16x64, .f32⟩
  | .hbm, ⟨6, _⟩ => ⟨S64x64, .f32⟩
  | .hbm, ⟨7, _⟩ => ⟨S64x1x64x1, .f32⟩
  | .hbm, ⟨8, _⟩ => ⟨S1x64x1x64, .f32⟩
  | .hbm, ⟨9, _⟩ => ⟨S64x64x64x64, .f32⟩
  | .hbm, ⟨10, _⟩ => ⟨S64x64x64x64, .f32⟩
  | .hbm, ⟨11, _⟩ => ⟨S64x64x64x64, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S64x16_S16x64_S64x64_1_0_0_1_n_n_wf : DotDims.WF S64x16 S16x64 S64x64 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one grid point's body leaves behind, as plain values.

  The body keeps a running [2048, 1024] block of partial products in a scratch buffer that lives across the eight
  points of a reduction run. At the first point of a run it stores zeros there and then adds that point's product of
  the two operand blocks; at every later point it adds that point's product to what the point before left; at the last
  point it also writes the finished block, plus the bias row, to the output block. Each of those buffers is stored
  whole, so what it holds afterwards is the stored payload itself, and a buffer read whole gives back what it held.
-/
import proofs.«170950_j16716012716545_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of a whole-buffer access are all zero. -/
theorem hz : (![0, 0] : Fin 2 → Nat) = fun _ => 0 := funext fun a => by fin_cases a <;> rfl

/-- First point of a run: the scratch ends at the zero block plus this point's product of the operand blocks. -/
theorem scratch_first (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : cond0_0 i) (hc1 : ¬cond0_1 i)
    (x0 : Vec F S2048x512 .bf16) (x1 : Vec F S1024x512 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x512) hz,
    View.ld_unit_zero (S := S1024x512) hz]

/-- A middle point of a run: the scratch ends at what the point before left plus this point's product. -/
theorem scratch_middle (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : ¬cond0_1 i)
    (x0 : Vec F S2048x512 .bf16) (x1 : Vec F S1024x512 .bf16) (x2 : Vec F S1x1024 .f32) (xs0 : Vec F S2048x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S2048x1024) hz,
    View.ld_unit_zero (S := S2048x512) hz, View.ld_unit_zero (S := S1024x512) hz]

/-- Last point of a run: the scratch ends, as at a middle point, at what the point before left plus this point's product. -/
theorem scratch_last (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i)
    (x0 : Vec F S2048x512 .bf16) (x1 : Vec F S1024x512 .bf16) (x2 : Vec F S1x1024 .f32) (xs0 : Vec F S2048x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S2048x1024) hz,
    View.ld_unit_zero (S := S2048x512) hz, View.ld_unit_zero (S := S1024x512) hz]

/-- Last point of a run: the output block ends at the finished running block plus the bias row. -/
theorem out_last (c : Dev nD) (i : grid0.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i)
    (x0 : Vec F S2048x512 .bf16) (x1 : Vec F S1024x512 .bf16) (x2 : Vec F S1x1024 .f32) (xs0 : Vec F S2048x1024 .f32) :
    out0_C_3 c i a3 h3 a4 h4 a5 h5 a6 h6 a7 h7 hc0 hc1 x0 x1 x2 xs0 = k0_pay3 x2 (k0_pay2 xs0 x0 x1) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S2048x1024) _ hz]
  simp only [View.readAt_eq_ld, h3.read_unread, h4.read_unread, h5.read_unread, h7.read_unread,
    View.ld_unit_zero (S := S2048x1024) hz, View.ld_unit_zero (S := S2048x512) hz, View.ld_unit_zero (S := S1024x512) hz,
    View.ld_unit_zero (S := S1x1024) hz]

end Cert.KernelIdeal.Pieces

end
-- ==== Proof.LibMatmulT.lean ====
/-
  A matrix product into a zero accumulator whose right operand is stored row per output column (both operands contracted
  on their second axis: out = L · Rᵀ), read at an index as a plain sum of products over the contracted axis.

  For an n-by-K left operand and an M-by-K right operand, the entry at (p, q) is Σₖ L(p, k) · R(q, k). The four facts about
  the dimension numbers that say which coordinate of each operand index comes from the output index and which from the
  contraction index are taken as hypotheses: each printed record proves them by unfolding.
-/
import Idealize.ShloMosaic.PureOps.Ideal.Laws
import Idealize.ShloMosaic.Lib.ValueIdx

noncomputable section

open scoped BigOperators

namespace Cert.Lib.MatmulT

open Idealize.ShloMosaic Idealize.ShloMosaic.ValueIdx

/-- A kernel's matrix product L · Rᵀ into the zero splat, at the ideal values, read at `(p, q)`: the sum over the
    contracted axis of the left operand's row `p` times the right operand's row `q`. -/
theorem matmul_zero_ix2_t {n K M : ℕ} {φ₁ φ₂ : FTy}
    (d : DotDims (⟨2, ![n, K]⟩ : Shape) (⟨2, ![M, K]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (j 1).val) (hr1 : ∀ j c, (d.rhsIdx j c 1).val = (c ⟨0, by omega⟩).val)
    (lhs : FVec Ideal (⟨2, ![n, K]⟩ : Shape) φ₁) (rhs : FVec Ideal (⟨2, ![M, K]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lib.MatmulT

end
-- ==== Proof.Payload.lean ====
/-
  The body's three stored values read at one entry, over the extended reals.

  The zero block is 0 everywhere. The running block after a point is, at row p and column q, what it held before plus
  the sum over the 512 contracted positions l of left(p, l) · right(q, l): both operand blocks are stored with the
  contracted axis second, so the product is left · rightᵀ. The output block is the running block plus the bias row's
  entry of column q, the same for every row.
-/
import proofs.«170950_j16716012716545_2_alg».proof.Proof.Gen.KernelIdeal.Skeleton
import proofs.«170950_j16716012716545_2_alg».proof.Proof.LibMatmulT
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- One point's contribution: the product of its left block with the transpose of its right block. -/
def blockDot (x0 : FVec Ideal S2048x512 .bf16) (x1 : FVec Ideal S1024x512 .bf16) : S2048x1024.Idx → EReal :=
  fun i => ∑ l : Fin 512, x0 (ix2 (i 0) l) * x1 (ix2 (i 1) l)

theorem blockDot_ix2 (x0 : FVec Ideal S2048x512 .bf16) (x1 : FVec Ideal S1024x512 .bf16) (p : Fin 2048) (q : Fin 1024) :
    blockDot x0 x1 (ix2 p q) = ∑ l : Fin 512, x0 (ix2 p l) * x1 (ix2 q l) := rfl

/-- The zero block is 0 at every entry. -/
theorem zero_apply (i : S2048x1024.Idx) : k0_pay1 (F := Ideal) i = 0 := by
  unfold k0_pay1
  rw [shapeCast_self]
  show Ideal.ofBits .f32 0x00000000#32 = 0
  exact Ideal.ofBits_zero_f32

/-- Which coordinate of each operand's index comes from the output index and which from the contracted position. -/
theorem lhs0 (j : S2048x1024.Idx) (c : dot_S2048x512_S1024x512_S2048x1024_1_1_0_0_n_n.contr.Idx) :
    (dot_S2048x512_S1024x512_S2048x1024_1_1_0_0_n_n.lhsIdx j c 0).val = (j 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl
theorem lhs1 (j : S2048x1024.Idx) (c : dot_S2048x512_S1024x512_S2048x1024_1_1_0_0_n_n.contr.Idx) :
    (dot_S2048x512_S1024x512_S2048x1024_1_1_0_0_n_n.lhsIdx j c 1).val = (c ⟨0, by decide⟩).val :=
  dot_S2048x512_S1024x512_S2048x1024_1_1_0_0_n_n.lhsIdx_val_of_single rfl j c
theorem rhs0 (j : S2048x1024.Idx) (c : dot_S2048x512_S1024x512_S2048x1024_1_1_0_0_n_n.contr.Idx) :
    (dot_S2048x512_S1024x512_S2048x1024_1_1_0_0_n_n.rhsIdx j c 0).val = (j 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl
theorem rhs1 (j : S2048x1024.Idx) (c : dot_S2048x512_S1024x512_S2048x1024_1_1_0_0_n_n.contr.Idx) :
    (dot_S2048x512_S1024x512_S2048x1024_1_1_0_0_n_n.rhsIdx j c 1).val = (c ⟨0, by decide⟩).val :=
  dot_S2048x512_S1024x512_S2048x1024_1_1_0_0_n_n.rhsIdx_val_of_single rfl j c

/-- The running block after a point: what it held plus the point's contribution. -/
theorem running_apply (v3 : FVec Ideal S2048x1024 .f32) (x0 : FVec Ideal S2048x512 .bf16) (x1 : FVec Ideal S1024x512 .bf16)
    (i : S2048x1024.Idx) : k0_pay2 (F := Ideal) v3 x0 x1 i = v3 i + blockDot x0 x1 i := by
  obtain ⟨p, q, rfl⟩ : ∃ (p : Fin 2048) (q : Fin 1024), i = ix2 p q := ⟨i 0, i 1, eq_ix2 i⟩
  unfold k0_pay2
  rw [shapeCast_self, shapeCast_self, shapeCast_self]
  show v3 (ix2 p q) + FloatOps.matmul dot_S2048x512_S1024x512_S2048x1024_1_1_0_0_n_n none x0 x1
      (constant S2048x1024 .f32 0x00000000#32) (ix2 p q) = _
  exact congrArg (v3 (ix2 p q) + ·)
    (Cert.Lib.MatmulT.matmul_zero_ix2_t dot_S2048x512_S1024x512_S2048x1024_1_1_0_0_n_n none rfl rfl
      lhs0 lhs1 rhs0 rhs1 x0 x1 p q)

/-- The output block: the running block plus the bias row's entry of the column. -/
theorem biased_apply (x2 : FVec Ideal S1x1024 .f32) (v20 : FVec Ideal S2048x1024 .f32) (p : Fin 2048) (q : Fin 1024) :
    k0_pay3 (F := Ideal) x2 v20 (ix2 p q) = v20 (ix2 p q) + x2 (ix2 (0 : Fin 1) q) := by
  unfold k0_pay3
  rw [shapeCast_self, shapeCast_self]
  show v20 (ix2 p q) + broadcastTo S2048x1024 x2 broadcasts_S1x1024_S2048x1024 (ix2 p q) = _
  exact congrArg (v20 (ix2 p q) + ·) (broadcastTo_1b_ab_apply x2 broadcasts_S1x1024_S2048x1024 p q)

end Cert.KernelIdeal.Payload

end
-- ==== Proof.Arrays.lean ====
/-
  The three arrays the region reads, typed as tables of extended reals: the input as 8192 rows of 4096 features, the
  weight table, and the bias as a one-row table — each as the region finds it, after the host lines before it.
-/
import proofs.«170950_j16716012716545_2_alg».proof.Proof.Gen.KernelIdeal.Frame
import Idealize.ShloMosaic.PureOps.Ideal

noncomputable section

namespace Cert.KernelIdeal.Arrays

open Cert.KernelIdeal Cert.KernelIdeal.Gen Idealize.ShloMosaic Idealize.ShloMosaic.TcCoe Idealize.SL.Sem

variable (m : (ℓ : Loc nD τ sig) → Buf (Elt Ideal) ℓ)

/-- The input rows. -/
abbrev lhsArr (c : Dev nD) : FVec Ideal S8192x4096 .bf16 := V m c main_v14
/-- The weight table. -/
abbrev rhsArr (c : Dev nD) : FVec Ideal S4096x4096 .bf16 := V m c main_v12
/-- The bias row. -/
abbrev biasArr (c : Dev nD) : FVec Ideal S1x4096 .f32 := V m c main_v15

end Cert.KernelIdeal.Arrays

end
-- ==== Proof.Blocks.lean ====
/-
  Where each window's block sits in its array.

  The grid has 4 · 4 · 8 points, numbered t = 32·a + 8·b + k: a the block of 2048 output rows, b the block of 1024
  output columns, k the block of 512 contracted positions. At point t the left operand's block is rows 2048·a … and
  contracted positions 512·k … of its array, the right operand's block is rows 1024·b … and positions 512·k … of its
  array, the bias block is columns 1024·b … of the one-row bias, and the output block is rows 2048·a … and columns
  1024·b … of the result. So an entry of a block is the array's entry at block index × block size + the entry's own
  coordinate, on each axis.
-/
import proofs.«170950_j16716012716545_2_alg».proof.Proof.Arrays
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.KernelIdeal.Arrays

variable (m : (ℓ : Loc nD τ sig) → Buf (Elt Ideal) ℓ)

/-- The block indices of the four windows at point t, in closed form: decided over the 128 points. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The left operand's block at point t, typed as the body loads it. -/
abbrev lhsBlk (c : Dev nD) (t : Fin cfg0.N) : FVec Ideal S2048x512 .bf16 := iblk m c 0 t
/-- The right operand's block at point t. -/
abbrev rhsBlk (c : Dev nD) (t : Fin cfg0.N) : FVec Ideal S1024x512 .bf16 := iblk m c 1 t
/-- The bias block at point t. -/
abbrev biasBlk (c : Dev nD) (t : Fin cfg0.N) : FVec Ideal S1x1024 .f32 := iblk m c 2 t

/-- Entry (p, l) of the left block at point t is the left array's entry (2048·(t/32) + p, 512·(t%8) + l). -/
theorem lhsBlk_apply (c : Dev nD) (t : Fin cfg0.N) (p : Fin 2048) (l : Fin 512) (r : Fin 8192) (k : Fin 4096)
    (hr : r.val = 2048 * (t.val / 32) + p.val) (hk : k.val = 512 * (t.val % 8) + l.val) :
    lhsBlk m c t (ix2 p l) = lhsArr m c (ix2 r k) := by
  obtain ⟨e0, e1, -⟩ := index_facts t
  unfold lhsBlk iblk
  rw [View.read_apply]
  show V m c main_v14 (((cfg0.win 0).blk t).view.emb (ix2 p l)) = V m c main_v14 (ix2 r k)
  refine congrArg (V m c main_v14) (funext fun a => Fin.ext ?_)
  match a with
  | ⟨0, _⟩ => show win0_0.index t (0 : Fin 2) * 2048 + 1 * p.val = r.val; rw [e0, hr]; omega
  | ⟨1, _⟩ => show win0_0.index t (1 : Fin 2) * 512 + 1 * l.val = k.val; rw [e1, hk]; omega

/-- Entry (q, l) of the right block at point t is the right array's entry (1024·(t/8%4) + q, 512·(t%8) + l). -/
theorem rhsBlk_apply (c : Dev nD) (t : Fin cfg0.N) (q : Fin 1024) (l : Fin 512) (o : Fin 4096) (k : Fin 4096)
    (ho : o.val = 1024 * (t.val / 8 % 4) + q.val) (hk : k.val = 512 * (t.val % 8) + l.val) :
    rhsBlk m c t (ix2 q l) = rhsArr m c (ix2 o k) := by
  obtain ⟨-, -, e0, e1, -⟩ := index_facts t
  unfold rhsBlk iblk
  rw [View.read_apply]
  show V m c main_v12 (((cfg0.win 1).blk t).view.emb (ix2 q l)) = V m c main_v12 (ix2 o k)
  refine congrArg (V m c main_v12) (funext fun a => Fin.ext ?_)
  match a with
  | ⟨0, _⟩ => show win0_1.index t (0 : Fin 2) * 1024 + 1 * q.val = o.val; rw [e0, ho]; omega
  | ⟨1, _⟩ => show win0_1.index t (1 : Fin 2) * 512 + 1 * l.val = k.val; rw [e1, hk]; omega

/-- Entry (0, q) of the bias block at point t is the bias row's entry (0, 1024·(t/8%4) + q). -/
theorem biasBlk_apply (c : Dev nD) (t : Fin cfg0.N) (q : Fin 1024) (o : Fin 4096)
    (ho : o.val = 1024 * (t.val / 8 % 4) + q.val) :
    biasBlk m c t (ix2 (0 : Fin 1) q) = biasArr m c (ix2 (0 : Fin 1) o) := by
  obtain ⟨-, -, -, -, e0, e1, -⟩ := index_facts t
  unfold biasBlk iblk
  rw [View.read_apply]
  show V m c main_v15 (((cfg0.win 2).blk t).view.emb (ix2 (0 : Fin 1) q)) = V m c main_v15 (ix2 (0 : Fin 1) o)
  refine congrArg (V m c main_v15) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = o.val; rw [e1, ho]; omega

end Cert.KernelIdeal.Blocks

end
-- ==== Proof.Accum.lean ====
/-
  The running block over the eight points of a reduction run.

  Points 8·g, 8·g + 1, …, 8·g + 7 share one output block and differ in the block k of contracted positions. The
  first of them leaves 0 plus its own product in the scratch, each later one adds its own product to what the point
  before left. So after point 8·g + j the scratch holds 0 plus the sum of the products of points 8·g … 8·g + j — an
  induction along the run, never an enumeration of the grid — and the last point of the run also writes that, plus the
  bias row, to the output block.
-/
import proofs.«170950_j16716012716545_2_alg».proof.Proof.Pieces
import proofs.«170950_j16716012716545_2_alg».proof.Proof.Payload
import proofs.«170950_j16716012716545_2_alg».proof.Proof.Blocks

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.KernelIdeal.Blocks Cert.KernelIdeal.Payload

variable (m : (ℓ : Loc nD τ sig) → Buf (Elt Ideal) ℓ)

/-- Point n's product of its two operand blocks (nothing past the grid). -/
def contrib (c : Dev nD) (n : ℕ) : S2048x1024.Idx → EReal :=
  if h : n < cfg0.N then blockDot (lhsBlk m c ⟨n, h⟩) (rhsBlk m c ⟨n, h⟩) else fun _ => 0

theorem contrib_of_lt (c : Dev nD) (n : ℕ) (h : n < cfg0.N) :
    contrib m c n = blockDot (lhsBlk m c ⟨n, h⟩) (rhsBlk m c ⟨n, h⟩) := dif_pos h

/-- The scratch after the first point of a run. -/
def first (c : Dev nD) (n : ℕ) (h : n < cfg0.N) : FVec Ideal S2048x1024 .f32 :=
  k0_pay2 (F := Ideal) (k0_pay1 (F := Ideal)) (lhsBlk m c ⟨n, h⟩) (rhsBlk m c ⟨n, h⟩)

/-- The scratch after a later point, from what the point before left. -/
def step (c : Dev nD) (n : ℕ) (h : n < cfg0.N) (acc : FVec Ideal S2048x1024 .f32) : FVec Ideal S2048x1024 .f32 :=
  k0_pay2 (F := Ideal) acc (lhsBlk m c ⟨n, h⟩) (rhsBlk m c ⟨n, h⟩)

/-- At the first point of a run the scratch is reset. -/
theorem scratch_reset_at (c : Dev nD) (t : Fin cfg0.N) (h0 : t.val % 8 = 0) :
    (outsAt0 m c t.val t.isLt).2 = k0_pay2 (F := Ideal) (k0_pay1 (F := Ideal)) (lhsBlk m c t) (rhsBlk m c t) := by
  have h1 : ¬t.val % 8 = 7 := by omega
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun hh => h1 ((hcond0_1 t).mp hh)) (iblk m c 0 t) (iblk m c 1 t) (iblk m c 2 t)

theorem scratch_reset (c : Dev nD) (n : ℕ) (h : n < cfg0.N) (h0 : n % 8 = 0) :
    (outsAt0 m c n h).2 = first m c n h := scratch_reset_at m c ⟨n, h⟩ h0

/-- At every other point the scratch steps from what the point before left. -/
theorem scratch_step_at (c : Dev nD) (t : Fin cfg0.N) (hne : ¬t.val % 8 = 0) :
    (outsAt0 m c t.val t.isLt).2
      = k0_pay2 (F := Ideal) (outsAt0 m c (t.val - 1) (Nat.lt_of_le_of_lt (Nat.sub_le _ _) t.isLt)).2 (lhsBlk m c t) (rhsBlk m c t) := by
  by_cases h7 : t.val % 8 = 7
  · rw [outsAt0_C m c t hne h7]
    dsimp only
    exact Pieces.scratch_last (F := Ideal) c (grid0.coords t) (ms0_0 t) (hs0_0 t) (ms0_1 t) (hs0_1 t) (ms0_2 t) (hs0_2 t) (ms0_3 t) (hs0_3 t) scM0_0 (Memref.isWhole_whole _)
      (fun hh => hne ((hcond0_0 t).mp hh)) ((hcond0_1 t).mpr h7) (iblk m c 0 t) (iblk m c 1 t) (iblk m c 2 t)
      (outsAt0 m c (t.val - 1) (Nat.lt_of_le_of_lt (Nat.sub_le _ _) t.isLt)).2
  · rw [outsAt0_B m c t hne h7]
    dsimp only
    exact Pieces.scratch_middle (F := Ideal) c (grid0.coords t) (ms0_0 t) (hs0_0 t) (ms0_1 t) (hs0_1 t) (ms0_2 t) (hs0_2 t) (ms0_3 t) (hs0_3 t) scM0_0 (Memref.isWhole_whole _)
      (fun hh => hne ((hcond0_0 t).mp hh)) (fun hh => h7 ((hcond0_1 t).mp hh)) (iblk m c 0 t) (iblk m c 1 t) (iblk m c 2 t)
      (outsAt0 m c (t.val - 1) (Nat.lt_of_le_of_lt (Nat.sub_le _ _) t.isLt)).2

theorem scratch_step (c : Dev nD) (n : ℕ) (h : n + 1 < cfg0.N) (hne : ¬(n + 1) % 8 = 0) :
    (outsAt0 m c (n + 1) h).2 = step m c (n + 1) h (outsAt0 m c n (Nat.lt_of_succ_lt h)).2 :=
  scratch_step_at m c ⟨n + 1, h⟩ hne

/-- After point t the scratch holds 0 plus the products of the points of t's run up to t. -/
theorem scratch_eq (c : Dev nD) (t : ℕ) (ht : t < cfg0.N) (i : S2048x1024.Idx) :
    (outsAt0 m c t ht).2 i = 0 + ∑ s ∈ Finset.range (t % 8 + 1), contrib m c (8 * (t / 8) + s) i := by
  have hN : cfg0.N = 128 := N_0
  have hb : 8 * (t / 8) + t % 8 < cfg0.N := by omega
  have e := Pipeline.eq_accAt_of_mod (N := cfg0.N) (fun n h => (outsAt0 m c n h).2) 8 (first m c) (step m c)
    (fun n h h0 => scratch_reset m c n h h0) (fun n h hne => scratch_step m c n h hne) (by decide) t ht hb
  refine (congrFun e i).trans ?_
  exact Pipeline.accAt_add_apply (first m c) (step m c) (fun _ => (0 : EReal)) (contrib m c) (8 * (t / 8)) 7
    (fun h i => (running_apply (k0_pay1 (F := Ideal)) (lhsBlk m c ⟨8 * (t / 8), h⟩) (rhsBlk m c ⟨8 * (t / 8), h⟩) i).trans
      (by rw [zero_apply, contrib_of_lt m c _ h]))
    (fun n h acc i _ _ => (running_apply acc (lhsBlk m c ⟨n, h⟩) (rhsBlk m c ⟨n, h⟩) i).trans
      (by rw [contrib_of_lt m c _ h]))
    (t % 8) (by omega) hb i

/-- The last point of a run writes the finished scratch plus the bias row to the output block. -/
theorem out_eq (c : Dev nD) (t : Fin cfg0.N) (h7 : t.val % 8 = 7) :
    (outsAt0 m c t.val t.isLt).1 = k0_pay3 (F := Ideal) (biasBlk m c t) (outsAt0 m c t.val t.isLt).2 := by
  have h0 : ¬t.val % 8 = 0 := by omega
  rw [outsAt0_C m c t h0 h7]
  dsimp only
  rw [Pieces.out_last, Pieces.scratch_last]

end Cert.KernelIdeal.Accum

end
-- ==== Proof.Spec.lean ====
/-
  The function both programs compute: a linear layer y = x · Wᵀ + bias on 4 · 2048 rows of 4096 features.

  At batch b, position s and output feature o the result is the sum over the 4096 input features k of
  x(b, s, k) · W(o, k), plus bias(o). The weight table W is whatever table it is handed: both programs build theirs
  by the same operations from the same arguments, so it is carried as one value and never opened.
-/
import Idealize.ShloMosaic.PureOps.Ideal
import Idealize.ShloMosaic.Lib.ValueIdx

noncomputable section

open scoped BigOperators

namespace Cert.Spec

open Idealize.ShloMosaic Idealize.ShloMosaic.ValueIdx

/-- The linear layer on the [4, 2048, 4096] input. -/
def linear (x : (⟨3, ![4, 2048, 4096]⟩ : Shape).Idx → EReal) (W : (⟨2, ![4096, 4096]⟩ : Shape).Idx → EReal)
    (bias : (⟨1, ![4096]⟩ : Shape).Idx → EReal) : (⟨3, ![4, 2048, 4096]⟩ : Shape).Idx → EReal :=
  fun i => (∑ k : Fin 4096, x (ix3 (i 0) (i 1) k) * W (ix2 (i 2) k)) + bias (ix1 (i 2))

theorem linear_ix3 (x : (⟨3, ![4, 2048, 4096]⟩ : Shape).Idx → EReal) (W : (⟨2, ![4096, 4096]⟩ : Shape).Idx → EReal)
    (bias : (⟨1, ![4096]⟩ : Shape).Idx → EReal) (b : Fin 4) (s : Fin 2048) (o : Fin 4096) :
    linear x W bias (ix3 b s o) = (∑ k : Fin 4096, x (ix3 b s k) * W (ix2 o k)) + bias (ix1 o) := rfl

/-- The same layer on the input laid out as 8192 rows, the bias as a one-row table: what the kernel's region writes. -/
def rows (X : (⟨2, ![8192, 4096]⟩ : Shape).Idx → EReal) (W : (⟨2, ![4096, 4096]⟩ : Shape).Idx → EReal)
    (B : (⟨2, ![1, 4096]⟩ : Shape).Idx → EReal) : (⟨2, ![8192, 4096]⟩ : Shape).Idx → EReal :=
  fun i => (0 + ∑ k : Fin 4096, X (ix2 (i 0) k) * W (ix2 (i 1) k)) + B (ix2 (0 : Fin 1) (i 1))

theorem rows_ix2 (X : (⟨2, ![8192, 4096]⟩ : Shape).Idx → EReal) (W : (⟨2, ![4096, 4096]⟩ : Shape).Idx → EReal)
    (B : (⟨2, ![1, 4096]⟩ : Shape).Idx → EReal) (r : Fin 8192) (o : Fin 4096) :
    rows X W B (ix2 r o) = (0 + ∑ k : Fin 4096, X (ix2 r k) * W (ix2 o k)) + B (ix2 (0 : Fin 1) o) := rfl

end Cert.Spec

end
-- ==== Proof.LibBlockSum.lean ====
import Mathlib.Algebra.BigOperators.Fin
import Mathlib.Algebra.BigOperators.Group.Finset.Basic
import Mathlib.Logic.Equiv.Fin.Basic

/-!
# Sums taken block by block, and running totals

A sum over T·R entries is the sum over T blocks of the sums over the R entries of each block, entry r of block t being
entry R·t + r. A running total that starts at the first block's sum and adds one block's sum per step is, after
step n, the sum of the first n + 1 blocks' sums.
-/

open Finset

namespace Cert.LibBlockSum

variable {M : Type*} [AddCommMonoid M]

/-- A sum over T·R entries, taken block by block. -/
theorem sum_by_blocks (T R : ℕ) (f : Fin (T * R) → M) :
    ∑ i, f i = ∑ t : Fin T, ∑ r : Fin R, f (finProdFinEquiv (t, r)) := by
  rw [← Fintype.sum_prod_type']
  exact (Equiv.sum_comp finProdFinEquiv f).symm

/-- Entry r of block t is entry R·t + r. -/
theorem block_entry_val {T R : ℕ} (t : Fin T) (r : Fin R) : (finProdFinEquiv (t, r)).val = r.val + R * t.val := rfl

/-- The same with the entries numbered 0 … N − 1 for N = T·R: entry r of block t is entry R·t + r. -/
theorem sum_by_blocks_of_eq (T R N : ℕ) (hN : T * R = N) (f : Fin N → M) :
    ∑ i, f i = ∑ t : Fin T, ∑ r : Fin R, f ⟨R * t.val + r.val, by
      have h := (finProdFinEquiv (t, r)).isLt
      rw [show (finProdFinEquiv (t, r)).val = r.val + R * t.val from rfl] at h
      omega⟩ := by
  subst hN
  rw [sum_by_blocks T R f]
  refine Finset.sum_congr rfl fun t _ => Finset.sum_congr rfl fun r _ => congrArg f (Fin.ext ?_)
  exact Nat.add_comm _ _

/-- A running total after step n is the sum of the first n + 1 terms. -/
theorem running_total (s g : ℕ → M) (h0 : s 0 = g 0) (hs : ∀ n, s (n + 1) = s n + g (n + 1)) (n : ℕ) :
    s n = ∑ k ∈ range (n + 1), g k := by
  induction n with
  | zero => rw [h0, Finset.sum_range_one]
  | succ n ih => rw [hs, ih, Finset.sum_range_succ _ (n + 1)]

/-- The same, for a recurrence that is only known below a bound N. -/
theorem running_total_below (N : ℕ) (s g : ℕ → M) (h0 : s 0 = g 0) (hs : ∀ n, n + 1 < N → s (n + 1) = s n + g (n + 1))
    (n : ℕ) (hn : n < N) : s n = ∑ k ∈ range (n + 1), g k := by
  induction n with
  | zero => rw [h0, Finset.sum_range_one]
  | succ n ih => rw [hs n hn, ih (by omega), Finset.sum_range_succ _ (n + 1)]

end Cert.LibBlockSum
-- ==== Proof.KernelValue.lean ====
/-
  What the region leaves in its 8192-by-4096 result array.

  The output block of rows 2048·a … and columns 1024·b … is written back once, by the last point of its run of eight,
  and holds at (p, q) the eight blockwise products summed, plus the bias. The eight blocks of 512 contracted positions
  are the 4096 positions taken block by block, so the entry is the whole sum over the 4096 positions of
  left(2048·a + p, k) · right(1024·b + q, k), plus bias(1024·b + q): the array is one function of the three arrays the
  region reads. Every entry of the array lies in exactly one such block, so the whole array ends at that function.
-/
import proofs.«170950_j16716012716545_2_alg».proof.Proof.Accum
import proofs.«170950_j16716012716545_2_alg».proof.Proof.Spec
import proofs.«170950_j16716012716545_2_alg».proof.Proof.LibBlockSum

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.KernelIdeal.Blocks Cert.KernelIdeal.Payload Cert.KernelIdeal.Accum Cert.KernelIdeal.Arrays
open Idealize.ShloMosaic.Pipeline (Dat)

variable (m : (ℓ : Loc nD τ sig) → Buf (Elt Ideal) ℓ)

/-- The region's result as one function of the three arrays it reads, as the region finds them. -/
abbrev result (c : Dev nD) : S8192x4096.Idx → EReal :=
  Cert.Spec.rows (lhsArr m c) (rhsArr m c) (biasArr m c)

/-- The eight blockwise products of a run, at (p, q), are the whole sum over the 4096 contracted positions. -/
theorem run_sum (c : Dev nD) (t : Fin cfg0.N) (h7 : t.val % 8 = 7) (p : Fin 2048) (q : Fin 1024) (r : Fin 8192) (o : Fin 4096)
    (hr : r.val = 2048 * (t.val / 32) + p.val) (ho : o.val = 1024 * (t.val / 8 % 4) + q.val) :
    ∑ s ∈ Finset.range (t.val % 8 + 1), contrib m c (8 * (t.val / 8) + s) (ix2 p q)
      = ∑ k : Fin 4096, lhsArr m c (ix2 r k) * rhsArr m c (ix2 o k) := by
  have hN : cfg0.N = 128 := N_0
  have htl : t.val < 128 := lt_of_lt_of_eq t.isLt hN
  refine Eq.trans ?_ (Cert.LibBlockSum.sum_by_blocks_of_eq 8 512 4096 rfl
    (fun k : Fin 4096 => lhsArr m c (ix2 r k) * rhsArr m c (ix2 o k))).symm
  rw [show t.val % 8 + 1 = 8 from by omega, Finset.sum_range]
  refine Finset.sum_congr rfl fun s _ => ?_
  have hs : s.val < 8 := s.isLt
  have hn : 8 * (t.val / 8) + s.val < cfg0.N := by omega
  rw [contrib_of_lt m c _ hn, blockDot_ix2]
  refine Finset.sum_congr rfl fun l _ => ?_
  have hl : l.val < 512 := l.isLt
  rw [lhsBlk_apply m c ⟨8 * (t.val / 8) + s.val, hn⟩ p l r ⟨512 * s.val + l.val, by omega⟩
      (by show r.val = 2048 * ((8 * (t.val / 8) + s.val) / 32) + p.val; omega)
      (by show 512 * s.val + l.val = 512 * ((8 * (t.val / 8) + s.val) % 8) + l.val; omega),
    rhsBlk_apply m c ⟨8 * (t.val / 8) + s.val, hn⟩ q l o ⟨512 * s.val + l.val, by omega⟩
      (by show o.val = 1024 * ((8 * (t.val / 8) + s.val) / 8 % 4) + q.val; omega)
      (by show 512 * s.val + l.val = 512 * ((8 * (t.val / 8) + s.val) % 8) + l.val; omega)]

/-- What a run's last point writes back is the result's block there. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have hN : cfg0.N = 128 := N_0
  have htl : t.val < 128 := lt_of_lt_of_eq t.isLt hN
  obtain ⟨-, -, -, -, -, -, e0, e1⟩ := index_facts t
  show (cfg0.win 3).cut (grid0.coords t) ((dats m 0 c).after 3 t) = _
  rw [after0_3, out_eq m c t h7]
  funext y
  obtain ⟨p, q, rfl⟩ : ∃ (p : Fin 2048) (q : Fin 1024), y = ix2 p q := ⟨y 0, y 1, eq_ix2 y⟩
  have hp : p.val < 2048 := p.isLt
  have hq : q.val < 1024 := q.isLt
  show k0_pay3 (F := Ideal) (biasBlk m c t) (outsAt0 m c t.val t.isLt).2 (ix2 p q)
    = result m c (((cfg0.win 3).blk t).view.emb (ix2 p q))
  have hemb : ((cfg0.win 3).blk t).view.emb (ix2 p q)
      = ix2 (⟨2048 * (t.val / 32) + p.val, by omega⟩ : Fin 8192) (⟨1024 * (t.val / 8 % 4) + q.val, by omega⟩ : Fin 4096) := by
    funext a; apply Fin.ext
    match a with
    | ⟨0, _⟩ => show win0_3.index t (0 : Fin 2) * 2048 + 1 * p.val = 2048 * (t.val / 32) + p.val; rw [e0]; omega
    | ⟨1, _⟩ => show win0_3.index t (1 : Fin 2) * 1024 + 1 * q.val = 1024 * (t.val / 8 % 4) + q.val; rw [e1]; omega
  rw [hemb]
  unfold result
  rw [Cert.Spec.rows_ix2, biased_apply, scratch_eq m c t.val t.isLt (ix2 p q),
    biasBlk_apply m c t q ⟨1024 * (t.val / 8 % 4) + q.val, by omega⟩ rfl,
    run_sum m c t h7 p q ⟨2048 * (t.val / 32) + p.val, by omega⟩ ⟨1024 * (t.val / 8 % 4) + q.val, by omega⟩ rfl rfl]

/-- An entry of the array is in point t's output block iff each coordinate is in the block's range. -/
theorem mem_blk (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v16).slice (win0_3.rect t)).set ↔ _
  rw [View.set_slice_whole, Rect.mem_set_unit]
  exact Iff.rfl

/-- Every entry of the array is in the output block of the last point of some run. -/
theorem cover (i : S8192x4096.Idx) :
    ∃ t : Fin cfg0.N, (cfg0.win 3).flush t = true ∧ i ∈ ((cfg0.win 3).blk t).view.set := by
  have hN : cfg0.N = 128 := N_0
  have hi0 : (i 0).val < 8192 := (i 0).isLt
  have hi1 : (i 1).val < 4096 := (i 1).isLt
  have ht : 32 * ((i 0).val / 2048) + 8 * ((i 1).val / 1024) + 7 < cfg0.N := by omega
  obtain ⟨-, -, -, -, -, -, e0, e1⟩ := index_facts ⟨32 * ((i 0).val / 2048) + 8 * ((i 1).val / 1024) + 7, ht⟩
  refine ⟨⟨32 * ((i 0).val / 2048) + 8 * ((i 1).val / 1024) + 7, ht⟩, (flush0_3 _).mpr (by
    show (32 * ((i 0).val / 2048) + 8 * ((i 1).val / 1024) + 7) % 8 = 7; omega), ?_⟩
  rw [mem_blk]
  intro a
  match a with
  | ⟨0, _⟩ =>
    show win0_3.index ⟨32 * ((i 0).val / 2048) + 8 * ((i 1).val / 1024) + 7, ht⟩ (0 : Fin 2) * 2048 ≤ (i 0).val
      ∧ (i 0).val < win0_3.index ⟨32 * ((i 0).val / 2048) + 8 * ((i 1).val / 1024) + 7, ht⟩ (0 : Fin 2) * 2048 + 2048
    rw [e0]
    show (32 * ((i 0).val / 2048) + 8 * ((i 1).val / 1024) + 7) / 32 * 2048 ≤ (i 0).val
      ∧ (i 0).val < (32 * ((i 0).val / 2048) + 8 * ((i 1).val / 1024) + 7) / 32 * 2048 + 2048
    omega
  | ⟨1, _⟩ =>
    show win0_3.index ⟨32 * ((i 0).val / 2048) + 8 * ((i 1).val / 1024) + 7, ht⟩ (1 : Fin 2) * 1024 ≤ (i 1).val
      ∧ (i 1).val < win0_3.index ⟨32 * ((i 0).val / 2048) + 8 * ((i 1).val / 1024) + 7, ht⟩ (1 : Fin 2) * 1024 + 1024
    rw [e1]
    show (32 * ((i 0).val / 2048) + 8 * ((i 1).val / 1024) + 7) / 8 % 4 * 1024 ≤ (i 1).val
      ∧ (i 1).val < (32 * ((i 0).val / 2048) + 8 * ((i 1).val / 1024) + 7) / 8 % 4 * 1024 + 1024
    omega

/-- The result array after the region is the result function of the arrays the region reads. -/
theorem final (c : Dev nD) : (dats m 0 c).arrAt 3 cfg0.N = result m c :=
  (dats m 0 c).arrAt_eq_of_cover 3 (result m c) (flushed_eq m c) cover

end Cert.KernelIdeal.KernelValue

end
-- ==== Proof.HostSide.lean ====
/-
  The host lines around the region, read as values.

  Before the region the host builds the weight table, lays the [4, 2048, 4096] input out as 8192 rows, and lays the
  bias out as a one-row table (the two roundings to a shorter float format are the identity on extended reals). After
  the region it lays the 8192-row result out as [4, 2048, 4096] again. A re-layout keeps row-major order, so row
  2048·b + s of the 8192-row table is batch b, position s.
-/
import proofs.«170950_j16716012716545_2_alg».proof.Proof.Arrays
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.KernelIdeal.Arrays

variable (m : (ℓ : Loc nD τ sig) → Buf (Elt Ideal) ℓ)

/-- The weight table as the host lines build it: the base table plus the Kronecker product of the first factor with
    the product of the two low-rank factors, scaled by 1/16 and then by 1. -/
def weight (x1 : FVec Ideal S4096x4096 .f32) (x3 : FVec Ideal S64x64 .f32) (x4 : FVec Ideal S64x16 .f32)
    (x5 : FVec Ideal S16x64 .f32) : FVec Ideal S4096x4096 .f32 :=
  addf x1 (mulf (mulf (shapeCast S4096x4096
      (mulf (broadcastInDim S64x64x64x64 ![0, 1, 2, 3] bcast_S64x1x64x1_S64x64x64x64_0_1_2_3
              (broadcastInDim S64x1x64x1 ![0, 2] bcast_S64x64_S64x1x64x1_0_2 x3))
            (broadcastInDim S64x64x64x64 ![0, 1, 2, 3] bcast_S1x64x1x64_S64x64x64x64_0_1_2_3
              (broadcastInDim S1x64x1x64 ![1, 3] bcast_S64x64_S1x64x1x64_1_3
                (Host.dotGeneral (F := Ideal) dot_S64x16_S16x64_S64x64_1_0_0_1_n_n none x4 x5))))
      shapeCasts_S64x64x64x64_S4096x4096)
    (broadcastInDim S4096x4096 ![] bcast_S_S4096x4096 (constant (F := Ideal) S_ .f32 0x3D800000#32)))
    (broadcastInDim S4096x4096 ![] bcast_S_S4096x4096 (constant (F := Ideal) S_ .f32 0x3F800000#32)))

/-- The weight table the region finds is that table of the arguments. -/
theorem rhsArr_eq (c : Dev nD) : rhsArr m c
    = weight (m ((c.tc : Thread nD τ).loc main_arg1)) (m ((c.tc : Thread nD τ).loc main_arg3))
        (m ((c.tc : Thread nD τ).loc main_arg4)) (m ((c.tc : Thread nD τ).loc main_arg5)) := by
  show StableHlo.after hostOps0 (fun b => m (c, b)) (Proc.devRef .tc main_v12) = _
  after_results
  rfl

/-- The input rows the region finds are the input re-laid as 8192 rows. -/
theorem lhsArr_eq (c : Dev nD) : lhsArr m c
    = shapeCast S8192x4096 (m ((c.tc : Thread nD τ).loc main_arg0)) shapeCasts_S4x2048x4096_S8192x4096 := by
  show StableHlo.after hostOps0 (fun b => m (c, b)) (Proc.devRef .tc main_v14) = _
  after_results
  rfl

/-- The bias row the region finds is the bias re-laid as one row. -/
theorem biasArr_eq (c : Dev nD) : biasArr m c
    = shapeCast S1x4096 (m ((c.tc : Thread nD τ).loc main_arg2)) shapeCasts_S4096_S1x4096 := by
  show StableHlo.after hostOps0 (fun b => m (c, b)) (Proc.devRef .tc main_v15) = _
  after_results
  rfl

/-- Row 2048·b + s of the input rows is batch b, position s of the input. -/
theorem lhsArr_apply (c : Dev nD) (b : Fin 4) (s : Fin 2048) (k : Fin 4096) (r : Fin 8192)
    (hr : r.val = 2048 * b.val + s.val) :
    lhsArr m c (ix2 r k) = m ((c.tc : Thread nD τ).loc main_arg0) (ix3 b s k) := by
  rw [lhsArr_eq]
  exact shapeCast_apply _ shapeCasts_S4x2048x4096_S8192x4096 (ix2 r k) (ix3 b s k) (by
    rw [Shape.rowMajor_val_three, Shape.rowMajor_val_two]
    show (b.val * 2048 + s.val) * 4096 + k.val = r.val * 4096 + k.val
    rw [hr]; omega)

/-- Entry (0, o) of the bias row is entry o of the bias. -/
theorem biasArr_apply (c : Dev nD) (o : Fin 4096) :
    biasArr m c (ix2 (0 : Fin 1) o) = m ((c.tc : Thread nD τ).loc main_arg2) (ix1 o) := by
  rw [biasArr_eq]
  exact shapeCast_a_1a_apply _ shapeCasts_S4096_S1x4096 (0 : Fin 1) o

/-- The program's result is the region's result array re-laid as [4, 2048, 4096]. -/
theorem tail_eq (c : Dev nD) : Pipeline.afterTail₀ cfgs (dats m) 0 (V0 m) [hostOps1] c main_v17
    = shapeCast S4x2048x4096 ((dats m 0 c).arrAt 3 cfg0.N) shapeCasts_S8192x4096_S4x2048x4096 := by
  unfold Pipeline.afterTail₀
  show StableHlo.after hostOps1 _ (Proc.devRef .tc main_v17) = _
  after_results
  have hw : Pipeline.withArrays (cfgs 0).spec c (V0 m c) (fun w => (dats m 0 c).arrAt w (cfgs 0).N) (Proc.devRef .tc main_v16)
      = (dats m 0 c).arrAt 3 cfg0.N := Pipeline.withArrays_arr spec0 launch0.win.arr_inj c _ _ 3
  rw [hw]
  rfl

/-- Batch b, position s of a re-laid 8192-row table is its row 2048·b + s. -/
theorem relaid_apply (Y : FVec Ideal S8192x4096 .f32) (b : Fin 4) (s : Fin 2048) (o : Fin 4096) (r : Fin 8192)
    (hr : r.val = 2048 * b.val + s.val) :
    shapeCast S4x2048x4096 Y shapeCasts_S8192x4096_S4x2048x4096 (ix3 b s o) = Y (ix2 r o) :=
  shapeCast_apply Y shapeCasts_S8192x4096_S4x2048x4096 (ix3 b s o) (ix2 r o) (by
    rw [Shape.rowMajor_val_three, Shape.rowMajor_val_two]
    show r.val * 4096 + o.val = (b.val * 2048 + s.val) * 4096 + o.val
    rw [hr]; omega)

end Cert.KernelIdeal.HostSide

end
-- ==== Proof.KernelRun.lean ====
/-
  The kernel program's run, read: its result is the linear layer of its input, the weight table its host lines build,
  and its bias; its arguments end as they started.

  The region's result array is the layer on the 8192 input rows; the line after the region lays it out as
  [4, 2048, 4096], and row 2048·b + s of the input rows is batch b, position s of the input.
-/
import proofs.«170950_j16716012716545_2_alg».proof.Proof.KernelValue
import proofs.«170950_j16716012716545_2_alg».proof.Proof.HostSide

noncomputable section

open scoped BigOperators

namespace Cert.KernelIdeal.KernelRun

open Cert.KernelIdeal Cert.KernelIdeal.Gen Idealize.ShloMosaic Idealize.ShloMosaic.TcCoe Idealize.SL.Sem
open Idealize.ShloMosaic.ValueIdx Cert.KernelIdeal.Arrays Cert.KernelIdeal.HostSide Cert.KernelIdeal.KernelValue

variable (m : (ℓ : Loc nD τ sig) → Buf (Elt Ideal) ℓ) (ρ : Dev nD → PrngReg)

/-- The program's result as one function of its arguments. -/
abbrev answer (c : Dev nD) : S4x2048x4096.Idx → EReal :=
  Cert.Spec.linear (m ((c.tc : Thread nD τ).loc main_arg0))
    (weight (m ((c.tc : Thread nD τ).loc main_arg1)) (m ((c.tc : Thread nD τ).loc main_arg3)) (m ((c.tc : Thread nD τ).loc main_arg4)) (m ((c.tc : Thread nD τ).loc main_arg5)))
    (m ((c.tc : Thread nD τ).loc main_arg2))

/-- The region's result array, re-laid, is that function. -/
theorem value (c : Dev nD) :
    shapeCast S4x2048x4096 ((dats m 0 c).arrAt 3 cfg0.N) shapeCasts_S8192x4096_S4x2048x4096 = answer m c := by
  rw [final m c]
  funext i
  obtain ⟨b, s, o, rfl⟩ : ∃ (b : Fin 4) (s : Fin 2048) (o : Fin 4096), i = ix3 b s o := ⟨i 0, i 1, i 2, eq_ix3 i⟩
  have hb : b.val < 4 := b.isLt
  have hs : s.val < 2048 := s.isLt
  rw [relaid_apply (result m c) b s o ⟨2048 * b.val + s.val, by omega⟩ rfl]
  unfold result answer
  rw [Cert.Spec.rows_ix2, Cert.Spec.linear_ix3, zero_add, biasArr_apply, rhsArr_eq]
  refine congrArg (· + (m ((c.tc : Thread nD τ).loc main_arg2)) (ix1 o)) (Finset.sum_congr rfl fun k _ => ?_)
  rw [lhsArr_apply m c b s k ⟨2048 * b.val + s.val, by omega⟩ rfl]

/-- Every weakly fair execution of the kernel program terminates with its result at that function of the arguments
    and the arguments unchanged. -/
theorem run : θ_run defs (onTc (τ := τ) (main (F := Ideal))) ⟨m, fun _ => 0, ρ⟩ fun r => ∀ c : Dev nD,
      r.2.mem ((c.tc : Thread nD τ).loc main_v17) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v17 (Pipeline.mem_restRefs_of main_v17 (by decide) (by decide))).trans ((tail_eq m c).trans (value m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelRun

end
-- ==== Proof.RefSide.lean ====
/-
  The reference read at one entry.

  Its last line adds the bias, spread over batch and position, to the contraction of the input with the weight table
  over the input features; at (b, s, o) that is the sum over k of x(b, s, k) · W(o, k), plus bias(o): the linear layer
  of the specification, with the reference's own weight table carried as one value.
-/
import proofs.«170950_j16716012716545_2_alg».proof.Proof.Gen.ReferenceIdeal.Read
import proofs.«170950_j16716012716545_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result is the linear layer of its input, its weight table and its bias. -/
theorem result_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S64x64, .f32⟩ : BufTy).Contents (Elt Ideal))
    (x4 : (⟨S64x16, .f32⟩ : BufTy).Contents (Elt Ideal)) (x5 : (⟨S16x64, .f32⟩ : BufTy).Contents (Elt Ideal)) :
    val_main_v15 (F := Ideal) x0 x1 x2 x3 x4 x5 = Cert.Spec.linear x0 (val_main_v11 (F := Ideal) x1 x3 x4 x5) x2 := by
  funext i
  obtain ⟨b, s, o, rfl⟩ : ∃ (b : Fin 4) (s : Fin 2048) (o : Fin 4096), i = ix3 b s o := ⟨i 0, i 1, i 2, eq_ix3 i⟩
  have el : ∀ k : Fin 4096, lidx_main_v12 (ix3 b s o) k = ix3 b s k := fun k => funext fun a => Fin.ext (by
    match a with
    | ⟨0, _⟩ => rfl
    | ⟨1, _⟩ => rfl
    | ⟨2, _⟩ => rfl)
  have er : ∀ k : Fin 4096, ridx_main_v12 (ix3 b s o) k = ix2 o k := fun k => funext fun a => Fin.ext (by
    match a with
    | ⟨0, _⟩ => rfl
    | ⟨1, _⟩ => rfl)
  have eb : idx_main_v13 (idx_main_v14 (ix3 b s o)) = ix1 o := funext fun a => Fin.ext (by
    match a with
    | ⟨0, _⟩ => rfl)
  rw [val_main_v15_apply, val_main_v12_apply, val_main_v14_apply, val_main_v13_apply, Cert.Spec.linear_ix3, eb]
  simp only [el, er]
  rfl

end Cert.ReferenceIdeal.RefValue

end
-- ==== Proof.lean ====
/-
  A linear layer y = x · Wᵀ + bias with a low-rank-corrected weight table, computed two ways.

  Both programs build the weight table W = base + (w1 ⊗ (a · b)) · (1/16) · 1 by the same host operations on the same
  arguments. The kernel program then lays the [4, 2048, 4096] input out as 8192 rows and runs a grid of 4 · 4 · 8
  points: for each block of 2048 rows and 1024 output features it adds up, over eight blocks of 512 input features,
  the products of the input block with the transposed weight block in a running block that starts at zero, and at
  the last of the eight it writes the running block plus the bias row out; the result is laid out as
  [4, 2048, 4096] again. The reference contracts the input with the weight table over all 4096 input features at once
  and adds the bias.

  Over the extended reals the two results are equal entry by entry: the eight blockwise sums of 512 products are the
  one sum of 4096 products taken block by block (addition of extended reals is commutative and associative, so no
  finiteness of the inputs is needed), 0 + s = s, the roundings to a shorter float format are the identity, and a
  re-layout keeps row-major positions. The weight table is never opened: the two programs' tables are the same term.

  The three frames: the kernel program's and its idealization's are the generated frame certificates; the reference
  has no kernel and its frame is its run with the result forgotten. The idealization rewrote nothing, so it is
  sanctioned trivially.
-/
import proofs.«170950_j16716012716545_2_alg».proof.Defs
import proofs.«170950_j16716012716545_2_alg».proof.Proof.Gen.Kernel
import proofs.«170950_j16716012716545_2_alg».proof.Proof.Gen.Kernel.Skeleton
import proofs.«170950_j16716012716545_2_alg».proof.Proof.Gen.Kernel.Launch
import proofs.«170950_j16716012716545_2_alg».proof.Proof.Gen.Kernel.Points
import proofs.«170950_j16716012716545_2_alg».proof.Proof.Gen.Kernel.Frame
import proofs.«170950_j16716012716545_2_alg».proof.Proof.Gen.KernelIdeal
import proofs.«170950_j16716012716545_2_alg».proof.Proof.Gen.KernelIdeal.Skeleton
import proofs.«170950_j16716012716545_2_alg».proof.Proof.Gen.KernelIdeal.Launch
import proofs.«170950_j16716012716545_2_alg».proof.Proof.Gen.KernelIdeal.Points
import proofs.«170950_j16716012716545_2_alg».proof.Proof.Gen.KernelIdeal.Frame
import proofs.«170950_j16716012716545_2_alg».proof.Proof.Gen.ReferenceIdeal
import proofs.«170950_j16716012716545_2_alg».proof.Proof.Gen.ReferenceIdeal.Run
import proofs.«170950_j16716012716545_2_alg».proof.Proof.Gen.ReferenceIdeal.Read
import proofs.«170950_j16716012716545_2_alg».proof.Proof.Gen.Pre_finite_inputs
import proofs.«170950_j16716012716545_2_alg».proof.Proof.KernelRun
import proofs.«170950_j16716012716545_2_alg».proof.Proof.RefSide
import Idealize.ShloMosaic.Adequacy
import Idealize.ShloMosaic.Init

noncomputable section

namespace Cert.Proof

open Idealize.ShloMosaic Idealize.ShloMosaic.TcCoe Idealize.SL.Sem

/-- The two programs build one weight table: the same operations, in the same order, on the same arguments. -/
theorem weight_eq (x1 : FVec Ideal Cert.KernelIdeal.S4096x4096 .f32) (x3 : FVec Ideal Cert.KernelIdeal.S64x64 .f32)
    (x4 : FVec Ideal Cert.KernelIdeal.S64x16 .f32) (x5 : FVec Ideal Cert.KernelIdeal.S16x64 .f32) :
    Cert.ReferenceIdeal.Read.val_main_v11 (F := Ideal) x1 x3 x4 x5 = Cert.KernelIdeal.HostSide.weight x1 x3 x4 x5 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at the linear layer of the input, the shared weight
    table and the bias. -/
theorem algebraic : Cert.algebraic_KernelIdeal_ReferenceIdeal := by
  intro m ρ m' ρ' _ hagree
  refine ⟨fun c => Cert.KernelIdeal.KernelRun.answer m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, weight_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
